-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x1 .f32) (main_arg12 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg11
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x1 .f32) (main_arg12 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 145
  | .vmem => 23
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x1, .f32⟩
  | 12 => ⟨S1, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x256, .f32⟩
  | 89 => ⟨S850000x1, .f32⟩
  | 90 => ⟨S850000x256, .f32⟩
  | 91 => ⟨S850000x256, .f32⟩
  | 92 => ⟨S_, .f32⟩
  | 93 => ⟨S50000x256, .f32⟩
  | 94 => ⟨S850000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x256, .f32⟩
  | 112 => ⟨S850000x1, .f32⟩
  | 113 => ⟨S850000x256, .f32⟩
  | 114 => ⟨S850000x256, .f32⟩
  | 115 => ⟨S_, .f32⟩
  | 116 => ⟨S50000x256, .f32⟩
  | 117 => ⟨S850000x1, .i32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S256, .f32⟩
  | 1 => ⟨S50000x1, .i32⟩
  | 2 => ⟨S256, .f32⟩
  | 3 => ⟨S_, .f32⟩
  | 4 => ⟨S256x256, .f32⟩
  | 5 => ⟨S50000x1, .i32⟩
  | 6 => ⟨S256x256, .f32⟩
  | 7 => ⟨S_, .f32⟩
  | 8 => ⟨S256, .f32⟩
  | 9 => ⟨S256, .f32⟩
  | 10 => ⟨S256x1, .f32⟩
  | 11 => ⟨S256x256, .f32⟩
  | 12 => ⟨S256x256, .f32⟩
  | 13 => ⟨S1x256, .f32⟩
  | 14 => ⟨S256x256, .f32⟩
  | 15 => ⟨S1x1, .f32⟩
  | 16 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S256x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S256x256, .f32⟩
  | .local _ .vmem, ⟨20, _⟩ => ⟨S256x1, .f32⟩
  | .local _ .vmem, ⟨21, _⟩ => ⟨S1x1, .f32⟩
  | .local _ .vmem, ⟨22, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc4_sem0_0 : DmaSem sig := 19
abbrev cc4_sem1_0 : DmaSem sig := 20
abbrev cc4_sem2_0 : DmaSem sig := 21
abbrev cc4_sem3_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S256 : S_.BroadcastsInDim S256 (![] : Fin 0 → Fin S256.rank)
  bcast_S50000_S50000x1_0 : S50000.BroadcastsInDim S50000x1 (![0] : Fin 1 → Fin S50000x1.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  shapeCasts_S256_S1x256 : S256.ShapeCasts S1x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S256x256.size a
  hwx3_0 : ∀ i : grid3.Coords, EltTy.bits .f32 = 32 ∨ (Rect.block (s := S256x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x256.size a ≤ S256x256.size a
  hwx4_0 : ∀ i : grid4.Coords, EltTy.bits .f32 = 32 ∨ (Rect.block (s := S256x256) S256x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x1.size a ≤ S256x1.size a
  hwx4_1 : ∀ i : grid4.Coords, EltTy.bits .f32 = 32 ∨ (Rect.block (s := S256x1) S256x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .f32 = 32 ∨ (Rect.block (s := S256x1) S256x1.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v97) S256x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S256x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v99) S256x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S256x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x1, .f32⟩
  | 12 => ⟨S1, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x256, .f32⟩
  | 89 => ⟨S850000x1, .f32⟩
  | 90 => ⟨S850000x256, .f32⟩
  | 91 => ⟨S850000x256, .f32⟩
  | 92 => ⟨S_, .f32⟩
  | 93 => ⟨S50000x256, .f32⟩
  | 94 => ⟨S850000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x256, .f32⟩
  | 112 => ⟨S850000x1, .f32⟩
  | 113 => ⟨S850000x256, .f32⟩
  | 114 => ⟨S850000x256, .f32⟩
  | 115 => ⟨S_, .f32⟩
  | 116 => ⟨S50000x256, .f32⟩
  | 117 => ⟨S850000x1, .i32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S256, .f32⟩
  | 1 => ⟨S50000x1, .i32⟩
  | 2 => ⟨S256, .f32⟩
  | 3 => ⟨S_, .f32⟩
  | 4 => ⟨S256x256, .f32⟩
  | 5 => ⟨S50000x1, .i32⟩
  | 6 => ⟨S256x256, .f32⟩
  | 7 => ⟨S_, .f32⟩
  | 8 => ⟨S256, .f32⟩
  | 9 => ⟨S256, .f32⟩
  | 10 => ⟨S256x1, .f32⟩
  | 11 => ⟨S256x256, .f32⟩
  | 12 => ⟨S256x256, .f32⟩
  | 13 => ⟨S256x256, .f32⟩
  | 14 => ⟨S1x256, .f32⟩
  | 15 => ⟨S256x256, .f32⟩
  | 16 => ⟨S256x256, .f32⟩
  | 17 => ⟨S_, .f32⟩
  | 18 => ⟨S256x256, .f32⟩
  | 19 => ⟨S256x256, .f32⟩
  | 20 => ⟨S256x1, .f32⟩
  | 21 => ⟨S1x1, .f32⟩
  | 22 => ⟨S256x1, .f32⟩
  | 23 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call4_cst : Ref sig .tc := ⟨.hbm, 145, rfl⟩
abbrev main_call4_v0 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S50000_S50000x1_0 : S50000.BroadcastsInDim S50000x1 (![0] : Fin 1 → Fin S50000x1.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.KRun.lean ====
/-
  The kernel program's run with its result named.

  The program is sixteen segments: eleven stretches of host operations and five pipelined regions. After the last
  segment every buffer that outlives the regions holds the contents the segments' fold gives it, the result buffer
  among them. So every weakly fair execution from any memory ends with the result at the fold's contents of the
  result buffer, and with the thirteen argument arrays as launched.
-/
import proofs.«107750_j40140764348986_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    segments' fold leaves there and every argument array as launched. -/
theorem run : θ_run defs (onTc (τ := τ) (main (F := F))) ⟨m, fun _ => 0, ρ⟩ (fun r => ∀ c : Dev nD,
      r.2.mem ((c.tc : Thread nD τ).loc main_v101) = W16 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v101 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.ValueRun

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibRegionOp.lean ====
/-
  A pipelined region as one host operation on the buffer contents.

  A region replaces the contents of its own arrays and leaves every other buffer as it found it. A host operation
  replaces the contents of the buffers it writes and leaves every other buffer as it found it. So when an operation
  writes only arrays of the region, and at each of the region's arrays it leaves exactly what the region leaves there
  (for an array the region only reads: the contents it had), the region and the operation are the same function of
  the buffer contents. A program of regions among host operations is then one line of host operations, and its
  contents at any buffer are computed as a fold. Also here: the fold over a concatenation of two lines is the fold
  over the second from the fold over the first.
-/
import Idealize.ShloMosaic.Lib.Pipeline.FrameSuffix
import Idealize.ShloMosaic.Lib.StableHlo.Run

noncomputable section

namespace Cert.RegionOp

open Idealize.ShloMosaic Idealize.ShloMosaic.TcCoe Idealize.SL.Sem

variable {nD : Nat} {τ : Topo} {sig : RefSig} {Val : EltTy → Type}

/-- A region that leaves `A` in its arrays is the host operation `op` on the buffer contents, when `op` leaves `A w`
    in each array `w` of the region and writes no other buffer. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ))) (op : HloOp τ sig Val)
    (harr : ∀ w, A w = op.result V (Proc.devRef .tc (Pipeline.arrRef win w)))
    (hwr : ∀ b ∈ op.writes, ∃ w, Proc.devRef .tc (Pipeline.arrRef win w) = b) :
    Pipeline.withArrays win c V A = op.result V := by
  funext b
  by_cases h : ∃ w, Proc.devRef .tc (Pipeline.arrRef win w) = b
  · obtain ⟨w, rfl⟩ := h
    rw [Pipeline.withArrays_arr win hinj]
    exact harr w
  · unfold Pipeline.withArrays
    rw [dif_neg h]
    exact (op.result_of_not_mem V fun hb => h (hwr b hb)).symm

/-- An operation that writes the one buffer `y` leaves every other buffer as it was. -/
theorem result_keep (op : HloOp τ sig Val) (V : Valuation τ sig Val) (y r : Ref sig .tc)
    (hw : op.writes = {Proc.devRef .tc y}) (h : r ≠ y) : op.result V (Proc.devRef .tc r) = V (Proc.devRef .tc r) :=
  op.result_of_not_mem V (by rw [hw, Finset.mem_singleton]; exact StableHlo.devRef_ne_of_ne h)

/-- The fold over two lines in a row. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line of one. -/
theorem after_singleton (op : HloOp τ sig Val) (V : Valuation τ sig Val) : StableHlo.after [op] V = op.result V := rfl

end Cert.RegionOp

end
-- ==== Proof.Rows0.lean ====
/-
  The first layer's matrix product, block of rows by block of rows.

  The pipeline cuts the left matrix (50000 rows) into ten blocks of 5000 rows. At each point it multiplies the
  block by the whole weight matrix into a zero accumulator and writes back the block of the same 5000 rows of the
  result. Entry (r, q) of the result array is therefore the sum over k of left(r, k) · weight(k, q), whatever
  block row r lies in: the array the region leaves is the whole matrix product. Rounding the operands to
  bfloat16 on the way in is the identity on the extended reals.
-/
import proofs.«107750_j40140764348986_1_alg».proof.Proof.Gen.KernelIdeal.Frame
import proofs.«107750_j40140764348986_1_alg».proof.Proof.LibDense
import Idealize.ShloMosaic.Lib.Pipeline.Value
import Idealize.ShloMosaic.Lib.ValueIdx

set_option maxRecDepth 16384

noncomputable section

namespace Cert.KernelIdeal.Rows0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores: the product of the two loaded blocks. -/
theorem pay (x0 : Vec Ideal S5000x128 .f32) (x1 : Vec Ideal S128x256 .f32) : k0_pay1 x0 x1 = Dense.mm x0 x1 := by
  unfold k0_pay1
  exact Dense.matmul_plain_zero (M := 5000) (K := 128) (N := 256) none _ _

/-- The index maps over the ten points: the left and the result blocks move down with the point, the weight
    block stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight window's block is the whole weight matrix at every point. -/
theorem weight_blk (c : Dev nD) (t : Fin cfg0.N) : iblk0 V c 1 t = V c main_arg3 := by
  obtain ⟨-, -, e2, e3, -, -⟩ := idx t
  funext y
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Row p of the left window's block at point t is row 5000·t + p of the left matrix. -/
theorem left_blk (c : Dev nD) (t : Fin cfg0.N) (p : Fin 5000) (q : Fin 256) (k : Fin 128) :
    iblk0 V c 0 t (ix2 p k) = V c main_arg0 (ix2 ((((cfg0.win 2).blk t).view.emb (ix2 p q)) 0) k) := by
  obtain ⟨e0, e1, -, -, e4, -⟩ := idx t
  show V c main_arg0 (((cfg0.win 0).blk t).view.emb (ix2 p k)) = _
  refine congrArg _ (funext fun a => Fin.ext ?_)
  match a with
  | ⟨0, _⟩ =>
    show win0_0.index t (0 : Fin 2) * 5000 + 1 * p.val = win0_2.index t (0 : Fin 2) * 5000 + 1 * p.val
    omega
  | ⟨1, _⟩ => show win0_0.index t (1 : Fin 2) * 128 + 1 * k.val = k.val; omega

/-- The column of an entry of the result block is its column in the result array. -/
theorem out_col (t : Fin cfg0.N) (p : Fin 5000) (q : Fin 256) :
    ((((cfg0.win 2).blk t).view.emb (ix2 p q)) 1).val = q.val := by
  obtain ⟨-, -, -, -, -, e5⟩ := idx t
  show win0_2.index t (1 : Fin 2) * 256 + 1 * q.val = q.val
  omega

/-- What point t writes back is block t of the whole product. -/
theorem flushed_eq (c : Dev nD) (t : Fin cfg0.N) :
    (dat0 V c).flushed 2 t = ((cfg0.win 2).blk t).view.read (Elt Ideal) (Dense.mm (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  rw [pay, weight_blk]
  funext j
  obtain ⟨p, q, rfl⟩ : ∃ (p : Fin 5000) (q : Fin 256), j = ix2 p q := ⟨j 0, j 1, eq_ix2 j⟩
  show Dense.mm (iblk0 V c 0 t) (V c main_arg3) (ix2 p q)
    = Dense.mm (V c main_arg0) (V c main_arg3) (((cfg0.win 2).blk t).view.emb (ix2 p q))
  unfold Dense.mm
  refine Finset.sum_congr rfl fun k _ => ?_
  have hq : (((cfg0.win 2).blk t).view.emb (ix2 p q)) 1 = q := Fin.ext (out_col t p q)
  rw [show (ix2 p q : (⟨2, ![5000, 256]⟩ : Shape).Idx) 0 = p from rfl,
    show (ix2 p q : (⟨2, ![5000, 256]⟩ : Shape).Idx) 1 = q from rfl, left_blk V c t p q k, hq]

/-- An index of the result array is in point t's block iff each coordinate is in the block's range. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v32).slice (win0_2.rect t)).set ↔ _
  rw [View.set_slice_whole, Rect.mem_set_unit]
  exact Iff.rfl

/-- Row r of the result lies in the block of point r / 5000: the ten blocks cover the array. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 5000 < cfg0.N := by show _ < grid0.N; rw [N_0]; omega
  obtain ⟨-, -, -, -, e4, e5⟩ := idx ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 256 ≤ (i 1).val
      ∧ (i 1).val < win0_2.index ⟨(i 0).val / 5000, hN⟩ (1 : Fin 2) * 256 + 256
    rw [e5]; omega

/-- THE ARRAY THE REGION LEAVES: the whole matrix product of its two operands as the region finds them. -/
theorem out (c : Dev nD) : (dat0 V c).arrAt 2 cfg0.N = Dense.mm (V c main_arg0) (V c main_arg3) :=
  (dat0 V c).arrAt_eq_of_cover 2 _ (fun t _ => flushed_eq V c t) cover

end Cert.KernelIdeal.Rows0

end
-- ==== Proof.Rows1.lean ====
/-
  The second layer's matrix product, block of rows by block of rows.

  The pipeline cuts the left matrix (50000 rows) into ten blocks of 5000 rows. At each point it multiplies the
  block by the whole weight matrix into a zero accumulator and writes back the block of the same 5000 rows of the
  result. Entry (r, q) of the result array is therefore the sum over k of left(r, k) · weight(k, q), whatever
  block row r lies in: the array the region leaves is the whole matrix product. Rounding the operands to
  bfloat16 on the way in is the identity on the extended reals.
-/
import proofs.«107750_j40140764348986_1_alg».proof.Proof.Gen.KernelIdeal.Frame
import proofs.«107750_j40140764348986_1_alg».proof.Proof.LibDense
import Idealize.ShloMosaic.Lib.Pipeline.Value
import Idealize.ShloMosaic.Lib.ValueIdx

set_option maxRecDepth 16384

noncomputable section

namespace Cert.KernelIdeal.Rows1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores: the product of the two loaded blocks. -/
theorem pay (x0 : Vec Ideal S5000x256 .f32) (x1 : Vec Ideal S256x256 .f32) : k1_pay1 x0 x1 = Dense.mm x0 x1 := by
  unfold k1_pay1
  show matmul (DotDims.plain 5000 256 256) none (shapeCast S5000x256 x0 shapeCasts_S5000x256_S5000x256) x1
    (constant (F := Ideal) ⟨2, ![5000, 256]⟩ .f32 0x00000000#32) = _
  rw [shapeCast_self, Dense.matmul_plain_zero]

/-- The index maps over the ten points: the left and the result blocks move down with the point, the weight
    block stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The weight window's block is the whole weight matrix at every point. -/
theorem weight_blk (c : Dev nD) (t : Fin cfg1.N) : iblk1 V c 1 t = V c main_arg5 := by
  obtain ⟨-, -, e2, e3, -, -⟩ := idx t
  funext y
  show V c main_arg5 (((cfg1.win 1).blk t).view.emb y) = V c main_arg5 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- Row p of the left window's block at point t is row 5000·t + p of the left matrix. -/
theorem left_blk (c : Dev nD) (t : Fin cfg1.N) (p : Fin 5000) (q : Fin 256) (k : Fin 256) :
    iblk1 V c 0 t (ix2 p k) = V c main_v49 (ix2 ((((cfg1.win 2).blk t).view.emb (ix2 p q)) 0) k) := by
  obtain ⟨e0, e1, -, -, e4, -⟩ := idx t
  show V c main_v49 (((cfg1.win 0).blk t).view.emb (ix2 p k)) = _
  refine congrArg _ (funext fun a => Fin.ext ?_)
  match a with
  | ⟨0, _⟩ =>
    show win1_0.index t (0 : Fin 2) * 5000 + 1 * p.val = win1_2.index t (0 : Fin 2) * 5000 + 1 * p.val
    omega
  | ⟨1, _⟩ => show win1_0.index t (1 : Fin 2) * 256 + 1 * k.val = k.val; omega

/-- The column of an entry of the result block is its column in the result array. -/
theorem out_col (t : Fin cfg1.N) (p : Fin 5000) (q : Fin 256) :
    ((((cfg1.win 2).blk t).view.emb (ix2 p q)) 1).val = q.val := by
  obtain ⟨-, -, -, -, -, e5⟩ := idx t
  show win1_2.index t (1 : Fin 2) * 256 + 1 * q.val = q.val
  omega

/-- What point t writes back is block t of the whole product. -/
theorem flushed_eq (c : Dev nD) (t : Fin cfg1.N) :
    (dat1 V c).flushed 2 t = ((cfg1.win 2).blk t).view.read (Elt Ideal) (Dense.mm (V c main_v49) (V c main_arg5)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  rw [pay, weight_blk]
  funext j
  obtain ⟨p, q, rfl⟩ : ∃ (p : Fin 5000) (q : Fin 256), j = ix2 p q := ⟨j 0, j 1, eq_ix2 j⟩
  show Dense.mm (iblk1 V c 0 t) (V c main_arg5) (ix2 p q)
    = Dense.mm (V c main_v49) (V c main_arg5) (((cfg1.win 2).blk t).view.emb (ix2 p q))
  unfold Dense.mm
  refine Finset.sum_congr rfl fun k _ => ?_
  have hq : (((cfg1.win 2).blk t).view.emb (ix2 p q)) 1 = q := Fin.ext (out_col t p q)
  rw [show (ix2 p q : (⟨2, ![5000, 256]⟩ : Shape).Idx) 0 = p from rfl,
    show (ix2 p q : (⟨2, ![5000, 256]⟩ : Shape).Idx) 1 = q from rfl, left_blk V c t p q k, hq]

/-- An index of the result array is in point t's block iff each coordinate is in the block's range. -/
theorem mem_blk (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v50).slice (win1_2.rect t)).set ↔ _
  rw [View.set_slice_whole, Rect.mem_set_unit]
  exact Iff.rfl

/-- Row r of the result lies in the block of point r / 5000: the ten blocks cover the array. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : (i 0).val / 5000 < cfg1.N := by show _ < grid1.N; rw [N_1]; omega
  obtain ⟨-, -, -, -, e4, e5⟩ := idx ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 256 ≤ (i 1).val
      ∧ (i 1).val < win1_2.index ⟨(i 0).val / 5000, hN⟩ (1 : Fin 2) * 256 + 256
    rw [e5]; omega

/-- THE ARRAY THE REGION LEAVES: the whole matrix product of its two operands as the region finds them. -/
theorem out (c : Dev nD) : (dat1 V c).arrAt 2 cfg1.N = Dense.mm (V c main_v49) (V c main_arg5) :=
  (dat1 V c).arrAt_eq_of_cover 2 _ (fun t _ => flushed_eq V c t) cover

end Cert.KernelIdeal.Rows1

end
-- ==== Proof.Rows2.lean ====
/-
  The third layer's matrix product, block of rows by block of rows.

  The pipeline cuts the left matrix (50000 rows) into ten blocks of 5000 rows. At each point it multiplies the
  block by the whole weight matrix into a zero accumulator and writes back the block of the same 5000 rows of the
  result. Entry (r, q) of the result array is therefore the sum over k of left(r, k) · weight(k, q), whatever
  block row r lies in: the array the region leaves is the whole matrix product. Rounding the operands to
  bfloat16 on the way in is the identity on the extended reals.
-/
import proofs.«107750_j40140764348986_1_alg».proof.Proof.Gen.KernelIdeal.Frame
import proofs.«107750_j40140764348986_1_alg».proof.Proof.LibDense
import Idealize.ShloMosaic.Lib.Pipeline.Value
import Idealize.ShloMosaic.Lib.ValueIdx

set_option maxRecDepth 16384

noncomputable section

namespace Cert.KernelIdeal.Rows2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores: the product of the two loaded blocks. -/
theorem pay (x0 : Vec Ideal S5000x256 .f32) (x1 : Vec Ideal S256x256 .f32) : k2_pay1 x0 x1 = Dense.mm x0 x1 := by
  unfold k2_pay1
  show matmul (DotDims.plain 5000 256 256) none (shapeCast S5000x256 x0 shapeCasts_S5000x256_S5000x256) x1
    (constant (F := Ideal) ⟨2, ![5000, 256]⟩ .f32 0x00000000#32) = _
  rw [shapeCast_self, Dense.matmul_plain_zero]

/-- The index maps over the ten points: the left and the result blocks move down with the point, the weight
    block stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The weight window's block is the whole weight matrix at every point. -/
theorem weight_blk (c : Dev nD) (t : Fin cfg2.N) : iblk2 V c 1 t = V c main_arg7 := by
  obtain ⟨-, -, e2, e3, -, -⟩ := idx t
  funext y
  show V c main_arg7 (((cfg2.win 1).blk t).view.emb y) = V c main_arg7 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- Row p of the left window's block at point t is row 5000·t + p of the left matrix. -/
theorem left_blk (c : Dev nD) (t : Fin cfg2.N) (p : Fin 5000) (q : Fin 256) (k : Fin 256) :
    iblk2 V c 0 t (ix2 p k) = V c main_v67 (ix2 ((((cfg2.win 2).blk t).view.emb (ix2 p q)) 0) k) := by
  obtain ⟨e0, e1, -, -, e4, -⟩ := idx t
  show V c main_v67 (((cfg2.win 0).blk t).view.emb (ix2 p k)) = _
  refine congrArg _ (funext fun a => Fin.ext ?_)
  match a with
  | ⟨0, _⟩ =>
    show win2_0.index t (0 : Fin 2) * 5000 + 1 * p.val = win2_2.index t (0 : Fin 2) * 5000 + 1 * p.val
    omega
  | ⟨1, _⟩ => show win2_0.index t (1 : Fin 2) * 256 + 1 * k.val = k.val; omega

/-- The column of an entry of the result block is its column in the result array. -/
theorem out_col (t : Fin cfg2.N) (p : Fin 5000) (q : Fin 256) :
    ((((cfg2.win 2).blk t).view.emb (ix2 p q)) 1).val = q.val := by
  obtain ⟨-, -, -, -, -, e5⟩ := idx t
  show win2_2.index t (1 : Fin 2) * 256 + 1 * q.val = q.val
  omega

/-- What point t writes back is block t of the whole product. -/
theorem flushed_eq (c : Dev nD) (t : Fin cfg2.N) :
    (dat2 V c).flushed 2 t = ((cfg2.win 2).blk t).view.read (Elt Ideal) (Dense.mm (V c main_v67) (V c main_arg7)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  rw [pay, weight_blk]
  funext j
  obtain ⟨p, q, rfl⟩ : ∃ (p : Fin 5000) (q : Fin 256), j = ix2 p q := ⟨j 0, j 1, eq_ix2 j⟩
  show Dense.mm (iblk2 V c 0 t) (V c main_arg7) (ix2 p q)
    = Dense.mm (V c main_v67) (V c main_arg7) (((cfg2.win 2).blk t).view.emb (ix2 p q))
  unfold Dense.mm
  refine Finset.sum_congr rfl fun k _ => ?_
  have hq : (((cfg2.win 2).blk t).view.emb (ix2 p q)) 1 = q := Fin.ext (out_col t p q)
  rw [show (ix2 p q : (⟨2, ![5000, 256]⟩ : Shape).Idx) 0 = p from rfl,
    show (ix2 p q : (⟨2, ![5000, 256]⟩ : Shape).Idx) 1 = q from rfl, left_blk V c t p q k, hq]

/-- An index of the result array is in point t's block iff each coordinate is in the block's range. -/
theorem mem_blk (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v68).slice (win2_2.rect t)).set ↔ _
  rw [View.set_slice_whole, Rect.mem_set_unit]
  exact Iff.rfl

/-- Row r of the result lies in the block of point r / 5000: the ten blocks cover the array. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : (i 0).val / 5000 < cfg2.N := by show _ < grid2.N; rw [N_2]; omega
  obtain ⟨-, -, -, -, e4, e5⟩ := idx ⟨(i 0).val / 5000, hN⟩
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 256 ≤ (i 1).val
      ∧ (i 1).val < win2_2.index ⟨(i 0).val / 5000, hN⟩ (1 : Fin 2) * 256 + 256
    rw [e5]; omega

/-- THE ARRAY THE REGION LEAVES: the whole matrix product of its two operands as the region finds them. -/
theorem out (c : Dev nD) : (dat2 V c).arrAt 2 cfg2.N = Dense.mm (V c main_v67) (V c main_arg7) :=
  (dat2 V c).arrAt_eq_of_cover 2 _ (fun t _ => flushed_eq V c t) cover

end Cert.KernelIdeal.Rows2

end
-- ==== Proof.Ffn3.lean ====
/-
  The hidden layer of the read-out network on the pooled features.

  The region has one grid point and every window is its whole array, so the one block the body reads from each
  operand is that operand, and the block it writes back is the whole result. The body multiplies the left matrix
  by the weights into a zero accumulator, adds the bias row to every row and takes the maximum with zero:
  the array the region leaves is the rectified affine layer of the arrays it finds. Rounding the matrix operands to
  bfloat16 on the way in is the identity on the extended reals.
-/
import proofs.«107750_j40140764348986_1_alg».proof.Proof.Gen.KernelIdeal.Frame
import proofs.«107750_j40140764348986_1_alg».proof.Proof.LibDense
import Idealize.ShloMosaic.Lib.Pipeline.Value
import Idealize.ShloMosaic.Lib.ValueIdx

set_option maxRecDepth 16384

noncomputable section

namespace Cert.KernelIdeal.Ffn3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer as a function of the three arrays. -/
def layer (x : Vec Ideal S256x256 .f32) (w : Vec Ideal S256x256 .f32) (b : Vec Ideal S1x256 .f32) : Vec Ideal S256x256 .f32 :=
  Dense.relu (Dense.affine2 (M := 256) (K := 256) (N := 256) x w b)

/-- What the body stores is the layer of the three loaded blocks. -/
theorem pay (x0 : Vec Ideal S256x256 .f32) (x1 : Vec Ideal S256x256 .f32) (x2 : Vec Ideal S1x256 .f32) :
    k3_pay1 x0 x1 x2 = layer x0 x1 x2 := by
  unfold k3_pay1 layer
  show maximumf (addf (matmul (DotDims.plain 256 256 256) none (shapeCast S256x256 x0 shapeCasts_S256x256_S256x256) x1
      (constant (F := Ideal) ⟨2, ![256, 256]⟩ .f32 0x00000000#32))
    (broadcastTo S256x256 (shapeCast S1x256 x2 shapeCasts_S1x256_S1x256) broadcasts_S1x256_S256x256))
    (broadcast S256x256 (Scalar.ofBits (F := Ideal) .f32 0x00000000#32)) = _
  rw [shapeCast_self, shapeCast_self, Dense.addf_matmul_broadcastTo, Dense.maximumf_splat_zero]

/-- The index maps at the one point: every block index is zero. -/
theorem idx : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The left window's block is the whole left matrix. -/
theorem blk0 (c : Dev nD) (t : Fin cfg3.N) : iblk3 V c 0 t = V c main_v97 := by
  obtain ⟨e0, e1, -, -, -, -, -, -⟩ := idx t
  funext y
  show V c main_v97 (((cfg3.win 0).blk t).view.emb y) = V c main_v97 y
  refine congrArg _ (funext fun a => Fin.ext ?_)
  match a with
  | ⟨0, _⟩ => show win3_0.index t (0 : Fin 2) * 256 + 1 * (y 0).val = (y 0).val; omega
  | ⟨1, _⟩ => show win3_0.index t (1 : Fin 2) * 256 + 1 * (y 1).val = (y 1).val; omega

/-- The weight window's block is the whole weight matrix. -/
theorem blk1 (c : Dev nD) (t : Fin cfg3.N) : iblk3 V c 1 t = V c main_arg9 := by
  obtain ⟨-, -, e2, e3, -, -, -, -⟩ := idx t
  funext y
  show V c main_arg9 (((cfg3.win 1).blk t).view.emb y) = V c main_arg9 y
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 256 + 1 * (y 1).val = (y 1).val; omega

/-- The bias window's block is the whole bias row. -/
theorem blk2 (c : Dev nD) (t : Fin cfg3.N) : iblk3 V c 2 t = V c main_v98 := by
  obtain ⟨-, -, -, -, e4, e5, -, -⟩ := idx t
  funext y
  show V c main_v98 (((cfg3.win 2).blk t).view.emb y) = V c main_v98 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- What the one point writes back is the layer of the arrays, read through the whole-array block. -/
theorem flushed_eq (c : Dev nD) (t : Fin cfg3.N) :
    (dat3 V c).flushed 3 t
      = ((cfg3.win 3).blk t).view.read (Elt Ideal) (layer (V c main_v97) (V c main_arg9) (V c main_v98)) := by
  show (cfg3.win 3).cut (grid3.coords t) ((dat3 V c).after 3 t) = _
  rw [after3_3]
  unfold out3_3
  rw [View.canon_unit_zero hz]
  simp only [View.ld_unit_zero (S := S256x256) hz, View.ld_unit_zero (S := S1x256) hz]
  rw [pay, blk0, blk1, blk2]
  obtain ⟨-, -, -, -, -, -, e6, e7⟩ := idx t
  funext j
  show layer (V c main_v97) (V c main_arg9) (V c main_v98) j
    = layer (V c main_v97) (V c main_arg9) (V c main_v98) (((cfg3.win 3).blk t).view.emb j)
  refine congrArg _ (funext fun a => Fin.ext ?_)
  match a with
  | ⟨0, _⟩ => show (j 0).val = win3_3.index t (0 : Fin 2) * 256 + 1 * (j 0).val; omega
  | ⟨1, _⟩ => show (j 1).val = win3_3.index t (1 : Fin 2) * 256 + 1 * (j 1).val; omega

/-- An index of the result array is in the point's block iff each coordinate is in the block's range. -/
theorem mem_blk (t : Fin cfg3.N) (i : S256x256.Idx) :
    i ∈ ((cfg3.win 3).blk t).view.set ↔ ∀ a : Fin 2, win3_3.index t a * S256x256.size a ≤ (i a).val
      ∧ (i a).val < win3_3.index t a * S256x256.size a + S256x256.size a := by
  show i ∈ ((View.whole main_v99).slice (win3_3.rect t)).set ↔ _
  rw [View.set_slice_whole, Rect.mem_set_unit]
  exact Iff.rfl

/-- The one block covers the array. -/
theorem cover (i : S256x256.Idx) :
    ∃ t : Fin cfg3.N, (cfg3.win 3).flush t = true ∧ i ∈ ((cfg3.win 3).blk t).view.set := by
  have hi0 : (i 0).val < 256 := (i 0).isLt
  have hi1 : (i 1).val < 256 := (i 1).isLt
  obtain ⟨-, -, -, -, -, -, e6, e7⟩ := idx t3_0
  refine ⟨t3_0, flush3_3 _, ?_⟩
  rw [mem_blk]
  intro a
  match a with
  | ⟨0, _⟩ =>
    show win3_3.index t3_0 (0 : Fin 2) * 256 ≤ (i 0).val ∧ (i 0).val < win3_3.index t3_0 (0 : Fin 2) * 256 + 256
    omega
  | ⟨1, _⟩ =>
    show win3_3.index t3_0 (1 : Fin 2) * 256 ≤ (i 1).val ∧ (i 1).val < win3_3.index t3_0 (1 : Fin 2) * 256 + 256
    omega

/-- THE ARRAY THE REGION LEAVES: the layer of its three operands as the region finds them. -/
theorem out (c : Dev nD) : (dat3 V c).arrAt 3 cfg3.N = layer (V c main_v97) (V c main_arg9) (V c main_v98) :=
  (dat3 V c).arrAt_eq_of_cover 3 _ (fun t _ => flushed_eq V c t) cover

end Cert.KernelIdeal.Ffn3

end
-- ==== Proof.Ffn4.lean ====
/-
  The output layer of the read-out network: one number per graph.

  The region has one grid point and every window is its whole array, so the one block the body reads from each
  operand is that operand, and the block it writes back is the whole result. The body multiplies the left matrix
  by the weights into a zero accumulator, adds the bias row to every row:
  the array the region leaves is the affine layer of the arrays it finds. Rounding the matrix operands to
  bfloat16 on the way in is the identity on the extended reals.
-/
import proofs.«107750_j40140764348986_1_alg».proof.Proof.Gen.KernelIdeal.Frame
import proofs.«107750_j40140764348986_1_alg».proof.Proof.LibDense
import Idealize.ShloMosaic.Lib.Pipeline.Value
import Idealize.ShloMosaic.Lib.ValueIdx

set_option maxRecDepth 16384

noncomputable section

namespace Cert.KernelIdeal.Ffn4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer as a function of the three arrays. -/
def layer (x : Vec Ideal S256x256 .f32) (w : Vec Ideal S256x1 .f32) (b : Vec Ideal S1x1 .f32) : Vec Ideal S256x1 .f32 :=
  Dense.affine2 (M := 256) (K := 256) (N := 1) x w b

/-- What the body stores is the layer of the three loaded blocks. -/
theorem pay (x0 : Vec Ideal S256x256 .f32) (x1 : Vec Ideal S256x1 .f32) (x2 : Vec Ideal S1x1 .f32) :
    k4_pay1 x0 x1 x2 = layer x0 x1 x2 := by
  unfold k4_pay1 layer
  show addf (matmul (DotDims.plain 256 256 1) none (shapeCast S256x256 x0 shapeCasts_S256x256_S256x256) x1
      (constant (F := Ideal) ⟨2, ![256, 1]⟩ .f32 0x00000000#32))
    (broadcastTo S256x1 (shapeCast S1x1 x2 shapeCasts_S1x1_S1x1) broadcasts_S1x1_S256x1) = _
  rw [shapeCast_self, shapeCast_self, Dense.addf_matmul_broadcastTo]

/-- The index maps at the one point: every block index is zero. -/
theorem idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The left window's block is the whole left matrix. -/
theorem blk0 (c : Dev nD) (t : Fin cfg4.N) : iblk4 V c 0 t = V c main_v99 := by
  obtain ⟨e0, e1, -, -, -, -, -, -⟩ := idx t
  funext y
  show V c main_v99 (((cfg4.win 0).blk t).view.emb y) = V c main_v99 y
  refine congrArg _ (funext fun a => Fin.ext ?_)
  match a with
  | ⟨0, _⟩ => show win4_0.index t (0 : Fin 2) * 256 + 1 * (y 0).val = (y 0).val; omega
  | ⟨1, _⟩ => show win4_0.index t (1 : Fin 2) * 256 + 1 * (y 1).val = (y 1).val; omega

/-- The weight window's block is the whole weight matrix. -/
theorem blk1 (c : Dev nD) (t : Fin cfg4.N) : iblk4 V c 1 t = V c main_arg11 := by
  obtain ⟨-, -, e2, e3, -, -, -, -⟩ := idx t
  funext y
  show V c main_arg11 (((cfg4.win 1).blk t).view.emb y) = V c main_arg11 y
  refine congrArg _ (funext fun a => Fin.ext ?_)
  match a with
  | ⟨0, _⟩ => show win4_1.index t (0 : Fin 2) * 256 + 1 * (y 0).val = (y 0).val; omega
  | ⟨1, _⟩ => show win4_1.index t (1 : Fin 2) * 1 + 1 * (y 1).val = (y 1).val; omega

/-- The bias window's block is the whole bias row. -/
theorem blk2 (c : Dev nD) (t : Fin cfg4.N) : iblk4 V c 2 t = V c main_v100 := by
  obtain ⟨-, -, -, -, e4, e5, -, -⟩ := idx t
  funext y
  show V c main_v100 (((cfg4.win 2).blk t).view.emb y) = V c main_v100 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- What the one point writes back is the layer of the arrays, read through the whole-array block. -/
theorem flushed_eq (c : Dev nD) (t : Fin cfg4.N) :
    (dat4 V c).flushed 3 t
      = ((cfg4.win 3).blk t).view.read (Elt Ideal) (layer (V c main_v99) (V c main_arg11) (V c main_v100)) := by
  show (cfg4.win 3).cut (grid4.coords t) ((dat4 V c).after 3 t) = _
  rw [after4_3]
  unfold out4_3
  rw [View.canon_unit_zero hz]
  simp only [View.ld_unit_zero (S := S256x256) hz, View.ld_unit_zero (S := S256x1) hz, View.ld_unit_zero (S := S1x1) hz]
  rw [pay, blk0, blk1, blk2]
  obtain ⟨-, -, -, -, -, -, e6, e7⟩ := idx t
  funext j
  show layer (V c main_v99) (V c main_arg11) (V c main_v100) j
    = layer (V c main_v99) (V c main_arg11) (V c main_v100) (((cfg4.win 3).blk t).view.emb j)
  refine congrArg _ (funext fun a => Fin.ext ?_)
  match a with
  | ⟨0, _⟩ => show (j 0).val = win4_3.index t (0 : Fin 2) * 256 + 1 * (j 0).val; omega
  | ⟨1, _⟩ => show (j 1).val = win4_3.index t (1 : Fin 2) * 1 + 1 * (j 1).val; omega

/-- An index of the result array is in the point's block iff each coordinate is in the block's range. -/
theorem mem_blk (t : Fin cfg4.N) (i : S256x1.Idx) :
    i ∈ ((cfg4.win 3).blk t).view.set ↔ ∀ a : Fin 2, win4_3.index t a * S256x1.size a ≤ (i a).val
      ∧ (i a).val < win4_3.index t a * S256x1.size a + S256x1.size a := by
  show i ∈ ((View.whole main_v101).slice (win4_3.rect t)).set ↔ _
  rw [View.set_slice_whole, Rect.mem_set_unit]
  exact Iff.rfl

/-- The one block covers the array. -/
theorem cover (i : S256x1.Idx) :
    ∃ t : Fin cfg4.N, (cfg4.win 3).flush t = true ∧ i ∈ ((cfg4.win 3).blk t).view.set := by
  have hi0 : (i 0).val < 256 := (i 0).isLt
  have hi1 : (i 1).val < 1 := (i 1).isLt
  obtain ⟨-, -, -, -, -, -, e6, e7⟩ := idx t4_0
  refine ⟨t4_0, flush4_3 _, ?_⟩
  rw [mem_blk]
  intro a
  match a with
  | ⟨0, _⟩ =>
    show win4_3.index t4_0 (0 : Fin 2) * 256 ≤ (i 0).val ∧ (i 0).val < win4_3.index t4_0 (0 : Fin 2) * 256 + 256
    omega
  | ⟨1, _⟩ =>
    show win4_3.index t4_0 (1 : Fin 2) * 1 ≤ (i 1).val ∧ (i 1).val < win4_3.index t4_0 (1 : Fin 2) * 1 + 1
    omega

/-- THE ARRAY THE REGION LEAVES: the layer of its three operands as the region finds them. -/
theorem out (c : Dev nD) : (dat4 V c).arrAt 3 cfg4.N = layer (V c main_v99) (V c main_arg11) (V c main_v100) :=
  (dat4 V c).arrAt_eq_of_cover 3 _ (fun t _ => flushed_eq V c t) cover

end Cert.KernelIdeal.Ffn4

end
-- ==== Proof.AsOps.lean ====
/-
  The five regions as host operations, each with the function the reference applies.

  On the extended reals a region of the kernel program acts on the buffer contents as ONE host operation (the general
  fact is in LibRegionOp): it writes its result array and nothing else. The three layer regions leave the whole matrix
  product of their operands (Rows0, Rows1, Rows2), which is the host's general dot product with one contracted axis:
  both are the same sum over the contracted index at every entry. The two read-out regions leave an affine layer with
  the bias stored as one row (Ffn3, Ffn4); the program makes that row by reshaping the bias vector, the reference by
  broadcasting it: the same row, so the layer is the host's product plus the bias broadcast over the rows, and the
  maximum with a splat of zero is the maximum with zero broadcast.
-/
import proofs.«107750_j40140764348986_1_alg».proof.Proof.Gen.KernelIdeal.Frame
import proofs.«107750_j40140764348986_1_alg».proof.Proof.Gen.ReferenceIdeal
import proofs.«107750_j40140764348986_1_alg».proof.Proof.LibDense
import proofs.«107750_j40140764348986_1_alg».proof.Proof.LibColumn
import proofs.«107750_j40140764348986_1_alg».proof.Proof.LibRegionOp
import proofs.«107750_j40140764348986_1_alg».proof.Proof.Rows0
import proofs.«107750_j40140764348986_1_alg».proof.Proof.Rows1
import proofs.«107750_j40140764348986_1_alg».proof.Proof.Rows2
import proofs.«107750_j40140764348986_1_alg».proof.Proof.Ffn3
import proofs.«107750_j40140764348986_1_alg».proof.Proof.Ffn4

set_option maxRecDepth 16384
set_option maxHeartbeats 4000000

noncomputable section

namespace Cert.KernelIdeal.AsOps

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The functions, as the reference writes them (for any reading of the floats: they are compositions of host operations) -/

section Generic
variable {F : FTy → Type} [FloatOps F]

/-- The first layer's product. -/
def dg0 (l : FVec F S50000x128 .f32) (r : FVec F S128x256 .f32) :
    FVec F S50000x256 .f32 :=
  Host.dotGeneral (F := F) Cert.ReferenceIdeal.dot_S50000x128_S128x256_S50000x256_1_0_0_1_n_n none l r

/-- The second and third layers' product. -/
def dg1 (l : FVec F S50000x256 .f32) (r : FVec F S256x256 .f32) :
    FVec F S50000x256 .f32 :=
  Host.dotGeneral (F := F) Cert.ReferenceIdeal.dot_S50000x256_S256x256_S50000x256_1_0_0_1_n_n none l r

/-- The hidden read-out layer: product, bias broadcast to a row and over the rows, maximum with zero broadcast. -/
def hid (x : FVec F S256x256 .f32) (w : FVec F S256x256 .f32)
    (b : FVec F S256 .f32) : FVec F S256x256 .f32 :=
  maximumf (addf (Host.dotGeneral (F := F) Cert.ReferenceIdeal.dot_S256x256_S256x256_S256x256_1_0_0_1_n_n none x w)
      (broadcastInDim Cert.ReferenceIdeal.S256x256 ![0, 1] Cert.ReferenceIdeal.Facts₀.bcast_S1x256_S256x256_0_1 (broadcastInDim Cert.ReferenceIdeal.S1x256 ![1] Cert.ReferenceIdeal.Facts₀.bcast_S256_S1x256_1 b)))
    (broadcastInDim Cert.ReferenceIdeal.S256x256 ![] Cert.ReferenceIdeal.Facts₀.bcast_S_S256x256 (constant (F := F) Cert.ReferenceIdeal.S_ .f32 0x00000000#32))

/-- The output read-out layer: product plus the bias broadcast to a row and over the rows. -/
def outl (x : FVec F S256x256 .f32) (w : FVec F S256x1 .f32)
    (b : FVec F S1 .f32) : FVec F S256x1 .f32 :=
  addf (Host.dotGeneral (F := F) Cert.ReferenceIdeal.dot_S256x256_S256x1_S256x1_1_0_0_1_n_n none x w)
    (broadcastInDim Cert.ReferenceIdeal.S256x1 ![0, 1] Cert.ReferenceIdeal.Facts₀.bcast_S1x1_S256x1_0_1 (broadcastInDim Cert.ReferenceIdeal.S1x1 ![1] Cert.ReferenceIdeal.Facts₀.bcast_S1_S1x1_1 b))

/-! ## The operations -/

def op0 : HloOp τ sig (Elt F) := StableHlo.binary main_arg0 main_arg3 main_v32 dg0
def op1 : HloOp τ sig (Elt F) := StableHlo.binary main_v49 main_arg5 main_v50 dg1
def op2 : HloOp τ sig (Elt F) := StableHlo.binary main_v67 main_arg7 main_v68 dg1
def op3 : HloOp τ sig (Elt F) := StableHlo.ternary main_v97 main_arg9 main_arg10 main_v99 hid
def op4 : HloOp τ sig (Elt F) := StableHlo.ternary main_v99 main_arg11 main_arg12 main_v101 outl

end Generic

theorem dg0_eq (l r) : dg0 (F := Ideal) l r = Dense.mm l r := by
  unfold dg0
  exact Dense.dotGeneral_plain (M := 50000) (K := 128) (N := 256) l r
theorem dg1_eq (l r) : dg1 (F := Ideal) l r = Dense.mm l r := by
  unfold dg1
  exact Dense.dotGeneral_plain (M := 50000) (K := 256) (N := 256) l r

/-- The hidden layer with the bias reshaped to a row is the hidden layer with the bias broadcast to a row. -/
theorem hid_eq (x w) (b : FVec Ideal S256 .f32) :
    Ffn3.layer x w (shapeCast S1x256 b shapeCasts_S256_S1x256) = hid (F := Ideal) x w b := by
  unfold Ffn3.layer hid
  rw [Dense.affine_eq_affine2 x w b _ (fun q => Layout.cast_vec_row_apply b shapeCasts_S256_S1x256 q)]
  exact ((congrArg (fun z => maximumf z _)
      (Dense.addf_dotGeneral_broadcastInDim (M := 256) (K := 256) (N := 256) x w b Cert.ReferenceIdeal.Facts₀.bcast_S256_S1x256_1 Cert.ReferenceIdeal.Facts₀.bcast_S1x256_S256x256_0_1)).trans
    (Dense.maximumf_broadcastInDim_zero _ Cert.ReferenceIdeal.Facts₀.bcast_S_S256x256)).symm

/-- The output layer with the bias reshaped to a row is the output layer with the bias broadcast to a row. -/
theorem outl_eq (x w) (b : FVec Ideal S1 .f32) :
    Ffn4.layer x w (shapeCast S1x1 b shapeCasts_S1_S1x1) = outl (F := Ideal) x w b := by
  unfold Ffn4.layer outl
  rw [Dense.affine_eq_affine2 x w b _ (fun q => Layout.cast_vec_row_apply b shapeCasts_S1_S1x1 q)]
  exact (Dense.addf_dotGeneral_broadcastInDim (M := 256) (K := 256) (N := 1) x w b Cert.ReferenceIdeal.Facts₀.bcast_S1_S1x1_1 Cert.ReferenceIdeal.Facts₀.bcast_S1x1_S256x1_0_1).symm

/-- What the hidden layer's operation leaves in its result buffer. -/
theorem op3_at (V : Valuation τ sig (Elt Ideal)) : (op3 (F := Ideal)).result V (Proc.devRef .tc main_v99)
    = hid (F := Ideal) (V (Proc.devRef .tc main_v97)) (V (Proc.devRef .tc main_arg9)) (V (Proc.devRef .tc main_arg10)) := by
  unfold op3
  exact StableHlo.ternary_result _ _ _ _ _ _ _ _ _ _

/-- What the output layer's operation leaves in its result buffer. -/
theorem op4_at (V : Valuation τ sig (Elt Ideal)) : (op4 (F := Ideal)).result V (Proc.devRef .tc main_v101)
    = outl (F := Ideal) (V (Proc.devRef .tc main_v99)) (V (Proc.devRef .tc main_arg11)) (V (Proc.devRef .tc main_arg12)) := by
  unfold op4
  exact StableHlo.ternary_result _ _ _ _ _ _ _ _ _ _

/-! ## Each region is its operation -/

/-- Region 0 on the buffer contents. -/
theorem W4_eq (c : Dev nD) : W4 m ρ c = (op0 (F := Ideal)).result (W3 m ρ c) := by
  unfold W4
  refine RegionOp.withArrays_eq_result spec0 launch0.win.arr_inj c _ _ (op0 (F := Ideal)) (fun w => ?_) (fun b hb => ?_)
  · match w with
    | ⟨0, _⟩ =>
      exact ((dat0 (V3 m ρ) c).arrAt_in 0 rfl _).trans ((A_eq0 (V3 m ρ) c 0).trans
        (RegionOp.result_keep (op0 (F := Ideal)) (W3 m ρ c) main_v32 main_arg0 rfl (by decide)).symm)
    | ⟨1, _⟩ =>
      exact ((dat0 (V3 m ρ) c).arrAt_in 1 rfl _).trans ((A_eq0 (V3 m ρ) c 1).trans
        (RegionOp.result_keep (op0 (F := Ideal)) (W3 m ρ c) main_v32 main_arg3 rfl (by decide)).symm)
    | ⟨2, _⟩ =>
      exact (Rows0.out (V3 m ρ) c).trans ((dg0_eq _ _).symm.trans
        (StableHlo.binary_result main_arg0 main_arg3 main_v32 (dg0 (F := Ideal)) _ _ _ (W3 m ρ c)).symm)
  · exact ⟨2, (Finset.mem_singleton.mp (show b ∈ ({Proc.devRef .tc main_v32} : Finset (DevRef τ sig)) from hb)).symm⟩

/-- Region 1 on the buffer contents. -/
theorem W7_eq (c : Dev nD) : W7 m ρ c = (op1 (F := Ideal)).result (W6 m ρ c) := by
  unfold W7
  refine RegionOp.withArrays_eq_result spec1 launch1.win.arr_inj c _ _ (op1 (F := Ideal)) (fun w => ?_) (fun b hb => ?_)
  · match w with
    | ⟨0, _⟩ =>
      exact ((dat1 (V6 m ρ) c).arrAt_in 0 rfl _).trans ((A_eq1 (V6 m ρ) c 0).trans
        (RegionOp.result_keep (op1 (F := Ideal)) (W6 m ρ c) main_v50 main_v49 rfl (by decide)).symm)
    | ⟨1, _⟩ =>
      exact ((dat1 (V6 m ρ) c).arrAt_in 1 rfl _).trans ((A_eq1 (V6 m ρ) c 1).trans
        (RegionOp.result_keep (op1 (F := Ideal)) (W6 m ρ c) main_v50 main_arg5 rfl (by decide)).symm)
    | ⟨2, _⟩ =>
      exact (Rows1.out (V6 m ρ) c).trans ((dg1_eq _ _).symm.trans
        (StableHlo.binary_result main_v49 main_arg5 main_v50 (dg1 (F := Ideal)) _ _ _ (W6 m ρ c)).symm)
  · exact ⟨2, (Finset.mem_singleton.mp (show b ∈ ({Proc.devRef .tc main_v50} : Finset (DevRef τ sig)) from hb)).symm⟩

/-- Region 2 on the buffer contents. -/
theorem W10_eq (c : Dev nD) : W10 m ρ c = (op2 (F := Ideal)).result (W9 m ρ c) := by
  unfold W10
  refine RegionOp.withArrays_eq_result spec2 launch2.win.arr_inj c _ _ (op2 (F := Ideal)) (fun w => ?_) (fun b hb => ?_)
  · match w with
    | ⟨0, _⟩ =>
      exact ((dat2 (V9 m ρ) c).arrAt_in 0 rfl _).trans ((A_eq2 (V9 m ρ) c 0).trans
        (RegionOp.result_keep (op2 (F := Ideal)) (W9 m ρ c) main_v68 main_v67 rfl (by decide)).symm)
    | ⟨1, _⟩ =>
      exact ((dat2 (V9 m ρ) c).arrAt_in 1 rfl _).trans ((A_eq2 (V9 m ρ) c 1).trans
        (RegionOp.result_keep (op2 (F := Ideal)) (W9 m ρ c) main_v68 main_arg7 rfl (by decide)).symm)
    | ⟨2, _⟩ =>
      exact (Rows2.out (V9 m ρ) c).trans ((dg1_eq _ _).symm.trans
        (StableHlo.binary_result main_v67 main_arg7 main_v68 (dg1 (F := Ideal)) _ _ _ (W9 m ρ c)).symm)
  · exact ⟨2, (Finset.mem_singleton.mp (show b ∈ ({Proc.devRef .tc main_v68} : Finset (DevRef τ sig)) from hb)).symm⟩

/-- The bias row region 3 finds is the bias vector it finds, reshaped: the last host operation before it. -/
theorem bias3 (c : Dev nD) : W13 m ρ c (Proc.devRef .tc main_v98)
    = shapeCast S1x256 (W13 m ρ c (Proc.devRef .tc main_arg10)) shapeCasts_S256_S1x256 := by
  have e1 : W13 m ρ c (Proc.devRef .tc main_v98) = shapeCast S1x256 (W12 m ρ c (Proc.devRef .tc main_arg10)) shapeCasts_S256_S1x256 := by
    show StableHlo.after hostOps3_2 (W12 m ρ c) (Proc.devRef .tc main_v98) = _
    generalize W12 m ρ c = V
    after_results
    rfl
  have e2 : W13 m ρ c (Proc.devRef .tc main_arg10) = W12 m ρ c (Proc.devRef .tc main_arg10) := by
    show StableHlo.after hostOps3_2 (W12 m ρ c) (Proc.devRef .tc main_arg10) = _
    generalize W12 m ρ c = V
    after_results
  rw [e1, e2]

/-- Region 3 on the buffer contents. -/
theorem W14_eq (c : Dev nD) : W14 m ρ c = (op3 (F := Ideal)).result (W13 m ρ c) := by
  unfold W14
  refine RegionOp.withArrays_eq_result spec3 launch3.win.arr_inj c _ _ (op3 (F := Ideal)) (fun w => ?_) (fun b hb => ?_)
  · match w with
    | ⟨0, _⟩ =>
      exact ((dat3 (V13 m ρ) c).arrAt_in 0 rfl _).trans ((A_eq3 (V13 m ρ) c 0).trans
        (RegionOp.result_keep (op3 (F := Ideal)) (W13 m ρ c) main_v99 main_v97 rfl (by decide)).symm)
    | ⟨1, _⟩ =>
      exact ((dat3 (V13 m ρ) c).arrAt_in 1 rfl _).trans ((A_eq3 (V13 m ρ) c 1).trans
        (RegionOp.result_keep (op3 (F := Ideal)) (W13 m ρ c) main_v99 main_arg9 rfl (by decide)).symm)
    | ⟨2, _⟩ =>
      exact ((dat3 (V13 m ρ) c).arrAt_in 2 rfl _).trans ((A_eq3 (V13 m ρ) c 2).trans
        (RegionOp.result_keep (op3 (F := Ideal)) (W13 m ρ c) main_v99 main_v98 rfl (by decide)).symm)
    | ⟨3, _⟩ =>
      refine (Ffn3.out (V13 m ρ) c).trans ?_
      refine Eq.trans ?_ (op3_at (W13 m ρ c)).symm
      show Ffn3.layer (W13 m ρ c (Proc.devRef .tc main_v97)) (W13 m ρ c (Proc.devRef .tc main_arg9)) (W13 m ρ c (Proc.devRef .tc main_v98)) = _
      rw [bias3 m ρ c]
      exact hid_eq _ _ _
  · exact ⟨3, (Finset.mem_singleton.mp (show b ∈ ({Proc.devRef .tc main_v99} : Finset (DevRef τ sig)) from hb)).symm⟩

/-- The bias row region 4 finds is the bias vector it finds, reshaped: the one host operation before it. -/
theorem bias4 (c : Dev nD) : W15 m ρ c (Proc.devRef .tc main_v100)
    = shapeCast S1x1 (W15 m ρ c (Proc.devRef .tc main_arg12)) shapeCasts_S1_S1x1 := by
  have e1 : W15 m ρ c (Proc.devRef .tc main_v100) = shapeCast S1x1 (W14 m ρ c (Proc.devRef .tc main_arg12)) shapeCasts_S1_S1x1 := by
    show StableHlo.after hostOps4 (W14 m ρ c) (Proc.devRef .tc main_v100) = _
    generalize W14 m ρ c = V
    after_results
    rfl
  have e2 : W15 m ρ c (Proc.devRef .tc main_arg12) = W14 m ρ c (Proc.devRef .tc main_arg12) := by
    show StableHlo.after hostOps4 (W14 m ρ c) (Proc.devRef .tc main_arg12) = _
    generalize W14 m ρ c = V
    after_results
  rw [e1, e2]

/-- Region 4 on the buffer contents. -/
theorem W16_eq (c : Dev nD) : W16 m ρ c = (op4 (F := Ideal)).result (W15 m ρ c) := by
  unfold W16
  refine RegionOp.withArrays_eq_result spec4 launch4.win.arr_inj c _ _ (op4 (F := Ideal)) (fun w => ?_) (fun b hb => ?_)
  · match w with
    | ⟨0, _⟩ =>
      exact ((dat4 (V15 m ρ) c).arrAt_in 0 rfl _).trans ((A_eq4 (V15 m ρ) c 0).trans
        (RegionOp.result_keep (op4 (F := Ideal)) (W15 m ρ c) main_v101 main_v99 rfl (by decide)).symm)
    | ⟨1, _⟩ =>
      exact ((dat4 (V15 m ρ) c).arrAt_in 1 rfl _).trans ((A_eq4 (V15 m ρ) c 1).trans
        (RegionOp.result_keep (op4 (F := Ideal)) (W15 m ρ c) main_v101 main_arg11 rfl (by decide)).symm)
    | ⟨2, _⟩ =>
      exact ((dat4 (V15 m ρ) c).arrAt_in 2 rfl _).trans ((A_eq4 (V15 m ρ) c 2).trans
        (RegionOp.result_keep (op4 (F := Ideal)) (W15 m ρ c) main_v101 main_v100 rfl (by decide)).symm)
    | ⟨3, _⟩ =>
      refine (Ffn4.out (V15 m ρ) c).trans ?_
      refine Eq.trans ?_ (op4_at (W15 m ρ c)).symm
      show Ffn4.layer (W15 m ρ c (Proc.devRef .tc main_v99)) (W15 m ρ c (Proc.devRef .tc main_arg11)) (W15 m ρ c (Proc.devRef .tc main_v100)) = _
      rw [bias4 m ρ c]
      exact outl_eq _ _ _
  · exact ⟨3, (Finset.mem_singleton.mp (show b ∈ ({Proc.devRef .tc main_v101} : Finset (DevRef τ sig)) from hb)).symm⟩

end Cert.KernelIdeal.AsOps

end
-- ==== Proof.Bridge.lean ====
/-
  The kernel program's result is the reference's term.

  With each region read as the host operation that writes its result (AsOps), the kernel program is one line of host
  operations over the launch memory: the reference's own line, except that the three layer products and the two
  read-out layers are written by regions. Each of those is, as a function of the buffer contents, exactly what the
  reference's operations compute at that place (the general dot product; the product plus the broadcast bias; the
  maximum with zero). So the contents of the result buffer at the end of the kernel's line, computed operation by
  operation from the thirteen argument arrays, is the reference's composed term of the same arrays. That computation
  uses no property of the float operations at all — it only follows which operation reads which buffer — so it is
  stated for any reading of the floats and then taken on the extended reals. No law of arithmetic is used beyond
  those already inside the regions' lemmas: every sum is taken over the same index set in the same form on both
  sides, and nothing is asked of the inputs.
-/
import proofs.«107750_j40140764348986_1_alg».proof.Proof.AsOps
import proofs.«107750_j40140764348986_1_alg».proof.Proof.RefRunP

set_option maxRecDepth 16384

noncomputable section

namespace Cert.KernelIdeal.Bridge

open Cert.KernelIdeal Cert.KernelIdeal.Gen Cert.KernelIdeal.AsOps
open Idealize.ShloMosaic Idealize.ShloMosaic.TcCoe Idealize.SL.Sem Idealize.ShloMosaic.StableHlo

section Generic
variable {F : FTy → Type} [FloatOps F]

set_option maxHeartbeats 400000000 in
/-- The line of host operations, run from any buffer contents `V`, leaves in the result buffer the reference's composed
    term of the contents of the thirteen argument buffers. -/
theorem eval (V : Valuation τ sig (Elt F)) (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = V (Proc.devRef .tc main_arg0))
    (h1 : m' ((c.tc : Thread Cert.ReferenceIdeal.nD Cert.ReferenceIdeal.τ).loc Cert.ReferenceIdeal.main_arg1) = V (Proc.devRef .tc main_arg1))
    (h2 : m' ((c.tc : Thread Cert.ReferenceIdeal.nD Cert.ReferenceIdeal.τ).loc Cert.ReferenceIdeal.main_arg2) = V (Proc.devRef .tc main_arg2))
    (h3 : m' ((c.tc : Thread Cert.ReferenceIdeal.nD Cert.ReferenceIdeal.τ).loc Cert.ReferenceIdeal.main_arg3) = V (Proc.devRef .tc main_arg3))
    (h4 : m' ((c.tc : Thread Cert.ReferenceIdeal.nD Cert.ReferenceIdeal.τ).loc Cert.ReferenceIdeal.main_arg4) = V (Proc.devRef .tc main_arg4))
    (h5 : m' ((c.tc : Thread Cert.ReferenceIdeal.nD Cert.ReferenceIdeal.τ).loc Cert.ReferenceIdeal.main_arg5) = V (Proc.devRef .tc main_arg5))
    (h6 : m' ((c.tc : Thread Cert.ReferenceIdeal.nD Cert.ReferenceIdeal.τ).loc Cert.ReferenceIdeal.main_arg6) = V (Proc.devRef .tc main_arg6))
    (h7 : m' ((c.tc : Thread Cert.ReferenceIdeal.nD Cert.ReferenceIdeal.τ).loc Cert.ReferenceIdeal.main_arg7) = V (Proc.devRef .tc main_arg7))
    (h8 : m' ((c.tc : Thread Cert.ReferenceIdeal.nD Cert.ReferenceIdeal.τ).loc Cert.ReferenceIdeal.main_arg8) = V (Proc.devRef .tc main_arg8))
    (h9 : m' ((c.tc : Thread Cert.ReferenceIdeal.nD Cert.ReferenceIdeal.τ).loc Cert.ReferenceIdeal.main_arg9) = V (Proc.devRef .tc main_arg9))
    (h10 : m' ((c.tc : Thread Cert.ReferenceIdeal.nD Cert.ReferenceIdeal.τ).loc Cert.ReferenceIdeal.main_arg10) = V (Proc.devRef .tc main_arg10))
    (h11 : m' ((c.tc : Thread Cert.ReferenceIdeal.nD Cert.ReferenceIdeal.τ).loc Cert.ReferenceIdeal.main_arg11) = V (Proc.devRef .tc main_arg11))
    (h12 : m' ((c.tc : Thread Cert.ReferenceIdeal.nD Cert.ReferenceIdeal.τ).loc Cert.ReferenceIdeal.main_arg12) = V (Proc.devRef .tc main_arg12)) :
    (op4 (F := F)).result (after hostOps4 (op3.result (after hostOps3_2 (after hostOps3_1 (after hostOps3 (op2.result (after hostOps2_1 (after hostOps2 (op1.result (after hostOps1_1 (after hostOps1 (op0.result (after hostOps0_2 (after hostOps0_1 (after hostOps0 (V)))))))))))))))) (Proc.devRef .tc main_v101)
      = Cert.ReferenceIdeal.ValueP.res_main_v106 m' c := by
  unfold Cert.ReferenceIdeal.ValueP.res_main_v106
  rw [h0, h1, h2, h3, h4, h5, h6, h7, h8, h9, h10, h11, h12]
  unfold op0 op1 op2 op3 op4
  after_results_simp
  rfl

end Generic

variable (m : (ℓ : Loc nD τ sig) → Buf (Elt Ideal) ℓ) (ρ : Dev nD → PrngReg)

/-- The buffer contents at the program's end as one fold of host operations over the launch contents. -/
theorem fold (c : Dev nD) : W16 m ρ c
    = (op4 (F := Ideal)).result (after hostOps4 ((op3 (F := Ideal)).result (after hostOps3_2 (after hostOps3_1 (after hostOps3 ((op2 (F := Ideal)).result (after hostOps2_1 (after hostOps2 ((op1 (F := Ideal)).result (after hostOps1_1 (after hostOps1 ((op0 (F := Ideal)).result (after hostOps0_2 (after hostOps0_1 (after hostOps0 (W0 m ρ c)))))))))))))))) := by
  have h16 : W16 m ρ c = (op4 (F := Ideal)).result (after hostOps4 (W14 m ρ c)) := W16_eq m ρ c
  have h14 : W14 m ρ c = (op3 (F := Ideal)).result (after hostOps3_2 (after hostOps3_1 (after hostOps3 (W10 m ρ c)))) := W14_eq m ρ c
  have h10 : W10 m ρ c = (op2 (F := Ideal)).result (after hostOps2_1 (after hostOps2 (W7 m ρ c))) := W10_eq m ρ c
  have h7 : W7 m ρ c = (op1 (F := Ideal)).result (after hostOps1_1 (after hostOps1 (W4 m ρ c))) := W7_eq m ρ c
  have h4 : W4 m ρ c = (op0 (F := Ideal)).result (after hostOps0_2 (after hostOps0_1 (after hostOps0 (W0 m ρ c)))) := W4_eq m ρ c
  rw [h16, h14, h10, h7, h4]

/-- THE RESULT: what the kernel program leaves in its result buffer is the reference's composed term of the argument
    arrays, for memories that agree on the arguments. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12)) :
    W16 m ρ c (Proc.devRef .tc main_v101) = Cert.ReferenceIdeal.ValueP.res_main_v106 m' c := by
  rw [fold m ρ c]
  exact eval (F := Ideal) (W0 m ρ c) m' c h0 h1 h2 h3 h4 h5 h6 h7 h8 h9 h10 h11 h12

end Cert.KernelIdeal.Bridge

end
-- ==== Proof.lean ====
/-
  The claim: a three-layer graph convolution network with mean pooling and a two-layer read-out, its five dense
  products computed by pipelined regions, against the same network written with host operations only.

  Frames. The two kernel programs are sixteen segments each (eleven stretches of host operations, five regions);
  their frame certificates are generated whole. The reference is a line of host operations: its run ends with the
  arguments unchanged.

  Idealization. The ideal pass rewrote nothing: the idealized kernel program is the program's own text read on the
  extended reals, where rounding an operand to bfloat16 is the identity.

  Equality on the extended reals. The two programs share every host operation outside the five products. A region
  that multiplies blocks of 5000 rows by the whole weight matrix leaves the whole product, entry (r, q) being the sum
  over k of left(r, k) · weight(k, q) — the host's general dot product, the same sum. A read-out region leaves the
  product plus the bias row on every row (and the maximum with zero), the bias row being the bias vector whether it
  is reshaped or broadcast. So the kernel program's line of operations computes, from the same thirteen arrays, the
  reference's term. Nothing is asked of the inputs: no sum is regrouped and no factor is moved.
-/
import proofs.«107750_j40140764348986_1_alg».proof.Defs
import proofs.«107750_j40140764348986_1_alg».proof.Proof.Gen.Kernel
import proofs.«107750_j40140764348986_1_alg».proof.Proof.Gen.Kernel.Frame
import proofs.«107750_j40140764348986_1_alg».proof.Proof.Gen.KernelIdeal
import proofs.«107750_j40140764348986_1_alg».proof.Proof.Gen.KernelIdeal.Frame
import proofs.«107750_j40140764348986_1_alg».proof.Proof.Gen.ReferenceIdeal
import proofs.«107750_j40140764348986_1_alg».proof.Proof.Gen.Pre_finite_inputs
import proofs.«107750_j40140764348986_1_alg».proof.Proof.RefRunP
import proofs.«107750_j40140764348986_1_alg».proof.Proof.KRun
import proofs.«107750_j40140764348986_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's composed term of the reference's arguments, which are the
    kernel program's arguments. -/
theorem algebraic : Cert.algebraic_KernelIdeal_ReferenceIdeal := by
  intro m ρ m' ρ' _ hagree
  refine ⟨fun c => Cert.ReferenceIdeal.ValueP.res_main_v106 m' c, ?_, ?_⟩
  · refine (θ_run Cert.KernelIdeal.defs _ _).mono (fun _ h c => ⟨(h c).1.trans ?_, (h c).2⟩)
      (Cert.KernelIdeal.ValueRun.run (F := Ideal) m ρ)
    exact Cert.KernelIdeal.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2
  · exact Cert.ReferenceIdeal.ValueP.run (F := Ideal) m' ρ'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
